-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x8192 : Shape := ⟨3, ![2, 4096, 8192]⟩
abbrev S8192x4 : Shape := ⟨2, ![8192, 4]⟩
abbrev S4x8192 : Shape := ⟨2, ![4, 8192]⟩
abbrev S_ : Shape := ⟨0, ![]⟩

class Facts : Prop where
  bcast_S_S2x4096x8192 : S_.BroadcastsInDim S2x4096x8192 (![] : Fin 0 → Fin S2x4096x8192.rank)
  reducesTo_S2x4096x8192_S_d0_1_2 : S2x4096x8192.ReducesTo [0, 1, 2] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg4 : FVec F S4x8192 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S4x8192 .f32 := Host.absf main_arg4
  let main_cst_6 : FVec F S_ .f32 := constant S_ .f32 0x7F800000#32
  let main_v20 : FVec F S4x8192 .f32 := broadcastInDim S4x8192 ![] bcast_S_S4x8192 main_cst_6
  let main_v21 : IVec S4x8192 1 := cmpf .olt main_v19 main_v20
  let main_c_7 : IVec S_ 1 := constantI S_ 1 1#1
  let main_v22 : IVec S_ 1 := (fun x v => Host.reduce IntOp.andi x v reducesTo_S4x8192_S_d0_1 h_S_) main_v21 main_c_7
  let main_v23 : IVec S_ 1 := andi main_v18 main_v22
  main_v23

def fn {F : FTy → Type} [FloatOps F] (main_arg0 : FVec F S2x4096x8192 .f32) (main_arg1 : FVec F S8192x4 .f32) (main_arg2 : FVec F S4x8192 .f32) (main_arg3 : FVec F S8192x4 .f32) (main_arg4 : FVec F S4x8192 .f32) : IVec S_ 1 :=
  let main_v0 : FVec F S2x4096x8192 .f32 := Host.absf main_arg0
  let main_cst : FVec F S_ .f32 := constant S_ .f32 0x7F800000#32
  let main_v1 : FVec F S2x4096x8192 .f32 := broadcastInDim S2x4096x8192 ![] bcast_S_S2x4096x8192 main_cst
  let main_v2 : IVec S2x4096x8192 1 := cmpf .olt main_v0 main_v1
  let main_c : IVec S_ 1 := constantI S_ 1 1#1
  let main_v3 : IVec S_ 1 := (fun x v => Host.reduce IntOp.andi x v reducesTo_S2x4096x8192_S_d0_1_2 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_v13 main_v16
-- ==== Kernel.lean ====
abbrev S2x4096x8192 : Shape := ⟨3, ![2, 4096, 8192]⟩
abbrev S8192x4 : Shape := ⟨2, ![8192, 4]⟩
abbrev S4x8192 : Shape := ⟨2, ![4, 8192]⟩
abbrev S8192x8192 : Shape := ⟨2, ![8192, 8192]⟩
abbrev S256x8192 : Shape := ⟨2, ![256, 8192]⟩
abbrev S8192 : Shape := ⟨1, ![8192]⟩
abbrev S1x8192 : Shape := ⟨2, ![1, 8192]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x8192, .f32⟩
  | .hbm, ⟨1, _⟩ => ⟨S8192x4, .f32⟩
  | .hbm, ⟨2, _⟩ => ⟨S4x8192, .f32⟩
  | .hbm, ⟨3, _⟩ => ⟨S8192x4, .f32⟩
  | .hbm, ⟨4, _⟩ => ⟨S4x8192, .f32⟩
  | .hbm, ⟨5, _⟩ => ⟨S8192x8192, .f32⟩
  | .hbm, ⟨6, _⟩ => ⟨S4x8192, .f32⟩
  | .hbm, ⟨7, _⟩ => ⟨S4x8192, .f32⟩
  | .hbm, ⟨8, _⟩ => ⟨S8192x8192, .f32⟩
  | .hbm, ⟨9, _⟩ => ⟨S2x4096x8192, .f32⟩
  | .local _ .vmem, ⟨0, _⟩ => ⟨S256x8192, .f32⟩
  | .local _ .vmem, ⟨1, _⟩ => ⟨S256x8192, .f32⟩
  | .local _ .vmem, ⟨2, _⟩ => ⟨S4x8192, .f32⟩
  | .local _ .vmem, ⟨3, _⟩ => ⟨S4x8192, .f32⟩
  | .local _ .vmem, ⟨4, _⟩ => ⟨S4x8192, .f32⟩
  | .local _ .vmem, ⟨5, _⟩ => ⟨S4x8192, .f32⟩
  | .local _ .vmem, ⟨6, _⟩ => ⟨S256x8192, .f32⟩
  | .local _ .vmem, ⟨7, _⟩ => ⟨S256x8192, .f32⟩
  | _, _ => ⟨S2x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4096x8192_S8192x8192 : S2x4096x8192.ShapeCasts S8192x8192
  transposes_S8192x4_S4x8192_1_0 : S8192x4.Transposes [1, 0] S4x8192
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  reduces_S4x8192_S8192 : S4x8192.Reduces [0] S8192
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  broadcasts_S1x8192_S256x8192 : S1x8192.Broadcasts S256x8192
  shapeCasts_S8192x8192_S2x4096x8192 : S8192x8192.ShapeCasts S2x4096x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192.size a ≤ S4x8192.size a
  hwx0_1 : ∀ i : grid0.Coords, EltTy.bits .f32 = 32 ∨ (Rect.block (s := S4x8192) S4x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8192.size a ≤ S4x8192.size a
  hwx0_2 : ∀ i : grid0.Coords, EltTy.bits .f32 = 32 ∨ (Rect.block (s := S4x8192) S4x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8192.size a ≤ S4x8192.size a
  hwx0_3 : ∀ i : grid0.Coords, EltTy.bits .f32 = 32 ∨ (Rect.block (s := S4x8192) S4x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x8192.size a ≤ S4x8192.size a
  hwx0_4 : ∀ i : grid0.Coords, EltTy.bits .f32 = 32 ∨ (Rect.block (s := S4x8192) S4x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8192.size a ≤ S8192x8192.size a
  hwx0_5 : ∀ i : grid0.Coords, EltTy.bits .f32 = 32 ∨ (Rect.block (s := S8192x8192) S256x8192.size (cc0_transform_5 i) (hinb0_5 i)).WholeWords (EltTy.packing .f32)

variable [Facts₀]

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x8192 : Shape := ⟨3, ![2, 4096, 8192]⟩
abbrev S8192x4 : Shape := ⟨2, ![8192, 4]⟩
abbrev S4x8192 : Shape := ⟨2, ![4, 8192]⟩
abbrev S_ : Shape := ⟨0, ![]⟩
abbrev S8192 : Shape := ⟨1, ![8192]⟩
abbrev S2x4096 : Shape := ⟨2, ![2, 4096]⟩
abbrev S2x4096x1 : Shape := ⟨3, ![2, 4096, 1]⟩
abbrev S1x1x8192 : Shape := ⟨3, ![1, 1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x8192, .f32⟩
  | .hbm, ⟨1, _⟩ => ⟨S8192x4, .f32⟩
  | .hbm, ⟨2, _⟩ => ⟨S4x8192, .f32⟩
  | .hbm, ⟨3, _⟩ => ⟨S8192x4, .f32⟩
  | .hbm, ⟨4, _⟩ => ⟨S4x8192, .f32⟩
  | .hbm, ⟨5, _⟩ => ⟨S8192x4, .f32⟩
  | .hbm, ⟨6, _⟩ => ⟨S8192x4, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x4, .f32⟩
  | .hbm, ⟨13, _⟩ => ⟨S8192x4, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x8192, .f32⟩
  | .hbm, ⟨26, _⟩ => ⟨S2x4096x8192, .f32⟩
  | .hbm, ⟨27, _⟩ => ⟨S2x4096x8192, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x8192, .f32⟩
  | .hbm, ⟨35, _⟩ => ⟨S2x4096x8192, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x8192, .f32⟩
  | .hbm, ⟨41, _⟩ => ⟨S2x4096x8192, .f32⟩
  | .hbm, ⟨42, _⟩ => ⟨S1x1x8192, .f32⟩
  | .hbm, ⟨43, _⟩ => ⟨S2x4096x8192, .f32⟩
  | .hbm, ⟨44, _⟩ => ⟨S2x4096x8192, .f32⟩
  | .hbm, ⟨45, _⟩ => ⟨S1x1x8192, .f32⟩
  | .hbm, ⟨46, _⟩ => ⟨S2x4096x8192, .f32⟩
  | .hbm, ⟨47, _⟩ => ⟨S2x4096x8192, .f32⟩
  | _, _ => ⟨S2x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S4x8192_S8192x4_1_0 : S4x8192.Transposes [1, 0] S8192x4
  reducesTo_S8192x4_S8192_d1 : S8192x4.ReducesTo [1] S8192
  h_S_ : 0 < S_.numel
  bcast_S_S8192 : S_.BroadcastsInDim S8192 (![] : Fin 0 → Fin S8192.rank)
  reducesTo_S2x4096x8192_S2x4096_d2 : S2x4096x8192.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x8192_0_1_2 : S2x4096x1.BroadcastsInDim S2x4096x8192 (![0, 1, 2] : Fin 3 → Fin S2x4096x8192.rank)
  bcast_S8192_S1x1x8192_2 : S8192.BroadcastsInDim S1x1x8192 (![2] : Fin 1 → Fin S1x1x8192.rank)
  bcast_S1x1x8192_S2x4096x8192_0_1_2 : S1x1x8192.BroadcastsInDim S2x4096x8192 (![0, 1, 2] : Fin 3 → Fin S2x4096x8192.rank)

variable [Facts₀]

class Facts : Prop extends Facts₀ where

variable [Facts]
-- ==== Proof.LayerNormSpec.lean ====
/-
  The function both programs compute, written once over the extended reals.

  For a row `ρ` of 8192 entries: its mean is the row sum divided by 8192, its variance the mean of the squared
  deviations, and its normalised entry at `k` is the deviation at `k` times the reciprocal square root of
  (variance + ε), times a per-column scale, plus a per-column shift.  Scale and shift at column `q` are twice the
  `q`-th diagonal entry of a rank-4 product `A · B`, that is `2 · ∑ r, A[q, r] · B[r, q]`.

  The two programs differ only in how the three factors of the product are grouped: one forms
  `(deviation · invStd) · scale`, the other `deviation · (invStd · scale)`.  Multiplication of extended reals is
  associative, so the two groupings are the same number (`normEntryK_eq`); no finiteness is needed.
-/
import Idealize.ShloMosaic.PureOps.Ideal
import Idealize.ShloMosaic.Lib.ValueIdx

noncomputable section

open scoped BigOperators

namespace Cert.RowNorm

open Idealize.ShloMosaic Idealize.ShloMosaic.ValueIdx

/-- The number of features, 8192, as the float constant both programs divide by. -/
def nFeat : EReal := Ideal.ofBits .f32 0x46000000#32
/-- The variance offset ε (the float nearest 1e-5). -/
def eps : EReal := Ideal.ofBits .f32 0x3727C5AC#32
/-- The factor 2 both programs multiply each diagonal entry by. -/
def two : EReal := Ideal.ofBits .f32 0x40000000#32

/-- The mean of a row. -/
def rowMean (ρ : Fin 8192 → EReal) : EReal := Ideal.div (∑ k, ρ k) nFeat
/-- The mean squared deviation of a row. -/
def rowVar (ρ : Fin 8192 → EReal) : EReal := Ideal.div (∑ k, (ρ k - rowMean ρ) * (ρ k - rowMean ρ)) nFeat
/-- The reciprocal standard deviation, with the offset ε under the root. -/
def invStd (ρ : Fin 8192 → EReal) : EReal := Ideal.rsqrt (rowVar ρ + eps)

/-- A normalised entry, the product grouped as `(deviation · invStd) · scale`. -/
def normEntry (ρ : Fin 8192 → EReal) (sc sh : EReal) (k : Fin 8192) : EReal :=
  (ρ k - rowMean ρ) * invStd ρ * sc + sh
/-- The same entry, the product grouped as `deviation · (invStd · scale)`. -/
def normEntryK (ρ : Fin 8192 → EReal) (sc sh : EReal) (k : Fin 8192) : EReal :=
  (ρ k - rowMean ρ) * (invStd ρ * sc) + sh

/-- The two groupings agree: multiplication of extended reals is associative. -/
theorem normEntryK_eq (ρ : Fin 8192 → EReal) (sc sh : EReal) (k : Fin 8192) :
    normEntryK ρ sc sh k = normEntry ρ sc sh k := by
  unfold normEntryK normEntry
  rw [mul_assoc]

/-- Twice the `q`-th diagonal entry of `A · B` for `A : [8192, 4]`, `B : [4, 8192]`. -/
def lowRankDiag (A : (⟨2, ![8192, 4]⟩ : Shape).Idx → EReal) (B : (⟨2, ![4, 8192]⟩ : Shape).Idx → EReal) (q : Fin 8192) : EReal :=
  (∑ r : Fin 4, A (ix2 q r) * B (ix2 r q)) * two

/-- The same number when the left factor is held transposed, `At : [4, 8192]` with `At[r, q] = A[q, r]`. -/
def lowRankDiagT (At B : (⟨2, ![4, 8192]⟩ : Shape).Idx → EReal) (q : Fin 8192) : EReal :=
  (∑ r : Fin 4, At (ix2 r q) * B (ix2 r q)) * two

/-- The whole result, over the [2, 4096, 8192] input: entry (b, s, k) is the normalised entry `k` of row (b, s),
    scaled and shifted by the two rank-4 diagonals at column `k`. -/
def G (x : (⟨3, ![2, 4096, 8192]⟩ : Shape).Idx → EReal)
    (A1 : (⟨2, ![8192, 4]⟩ : Shape).Idx → EReal) (B2 : (⟨2, ![4, 8192]⟩ : Shape).Idx → EReal)
    (A3 : (⟨2, ![8192, 4]⟩ : Shape).Idx → EReal) (B4 : (⟨2, ![4, 8192]⟩ : Shape).Idx → EReal) :
    (⟨3, ![2, 4096, 8192]⟩ : Shape).Idx → EReal :=
  fun i => normEntry (fun k => x (ix3 (i 0) (i 1) k)) (lowRankDiag A1 B2 (i 2)) (lowRankDiag A3 B4 (i 2)) (i 2)

/-- `G` at an index given by coordinates. -/
theorem G_apply (x : (⟨3, ![2, 4096, 8192]⟩ : Shape).Idx → EReal)
    (A1 : (⟨2, ![8192, 4]⟩ : Shape).Idx → EReal) (B2 : (⟨2, ![4, 8192]⟩ : Shape).Idx → EReal)
    (A3 : (⟨2, ![8192, 4]⟩ : Shape).Idx → EReal) (B4 : (⟨2, ![4, 8192]⟩ : Shape).Idx → EReal)
    (b : Fin 2) (s : Fin 4096) (k : Fin 8192) :
    G x A1 B2 A3 B4 (ix3 b s k)
      = normEntry (fun k' => x (ix3 b s k')) (lowRankDiag A1 B2 k) (lowRankDiag A3 B4 k) k := rfl

/-- The result over the row-flattened [8192, 8192] input with the left factors held transposed: entry (r, q) is the
    normalised entry `q` of row `r`, in the grouping `deviation · (invStd · scale)`. -/
def G2 (X : (⟨2, ![8192, 8192]⟩ : Shape).Idx → EReal) (At B Ct D : (⟨2, ![4, 8192]⟩ : Shape).Idx → EReal) :
    (⟨2, ![8192, 8192]⟩ : Shape).Idx → EReal :=
  fun i => normEntryK (fun k => X (ix2 (i 0) k)) (lowRankDiagT At B (i 1)) (lowRankDiagT Ct D (i 1)) (i 1)

/-- `G2` at an index given by coordinates. -/
theorem G2_apply (X : (⟨2, ![8192, 8192]⟩ : Shape).Idx → EReal) (At B Ct D : (⟨2, ![4, 8192]⟩ : Shape).Idx → EReal)
    (r q : Fin 8192) :
    G2 X At B Ct D (ix2 r q)
      = normEntryK (fun k => X (ix2 r k)) (lowRankDiagT At B q) (lowRankDiagT Ct D q) q := rfl

end Cert.RowNorm

end
-- ==== Proof.RefIsSpec.lean ====
/-
  The reference program's result is the specification `G`.

  The reference's stages are read one at a time at an index given by coordinates: the row sum and the sum of squared
  deviations are sums over the last coordinate (the initial value of each sum is the float zero, which is the extended
  real 0); the mean, variance and reciprocal standard deviation are kept with a unit last axis and read back at any
  last coordinate; the two rank-4 diagonals are sums over the rank coordinate of `A[q, r] · Bᵀ[q, r] = A[q, r] · B[r, q]`.
  Put together, entry (b, s, k) of the result is `((x − mean) · invStd) · scale + shift`, which is `G` by definition.
-/
import proofs.«114333_g72842645340230_feedfinal_400_21_alg».proof.Proof.Gen.ReferenceIdeal.Read
import proofs.«114333_g72842645340230_feedfinal_400_21_alg».proof.Proof.LayerNormSpec
import Idealize.ShloMosaic.Lib.ValueIdx
import Idealize.ShloMosaic.PureOps.Ideal.Laws

noncomputable section

open scoped BigOperators

namespace Cert.RowNorm.Ref

open Idealize.ShloMosaic Idealize.ShloMosaic.ValueIdx Cert.ReferenceIdeal Cert.ReferenceIdeal.Read Cert.RowNorm

variable (x0 : (⟨S2x4096x8192, .f32⟩ : BufTy).Contents (Elt Ideal))
  (x1 : (⟨S8192x4, .f32⟩ : BufTy).Contents (Elt Ideal)) (x2 : (⟨S4x8192, .f32⟩ : BufTy).Contents (Elt Ideal))
  (x3 : (⟨S8192x4, .f32⟩ : BufTy).Contents (Elt Ideal)) (x4 : (⟨S4x8192, .f32⟩ : BufTy).Contents (Elt Ideal))

/-- The row sum at row (b, s). -/
theorem rowSum_at (b : Fin 2) (s : Fin 4096) :
    val_main_v10 (F := Ideal) x0 (ix2 b s) = ∑ k : Fin 8192, x0 (ix3 b s k) := by
  rw [val_main_v10_apply]
  show Ideal.ofBits .f32 0x00000000#32 + _ = _
  rw [Ideal.ofBits_zero_f32, zero_add]
  refine Finset.sum_congr rfl fun k _ => congrArg x0 (funext fun a => ?_)
  match a with | ⟨0, _⟩ => rfl | ⟨1, _⟩ => rfl | ⟨2, _⟩ => rfl

/-- The mean, kept with a unit last axis, at (b, s, u). -/
theorem mean_at (b : Fin 2) (s : Fin 4096) (u : Fin 1) :
    val_main_v13 (F := Ideal) x0 (ix3 b s u) = rowMean (fun k => x0 (ix3 b s k)) := by
  rw [val_main_v13_apply, val_main_v11_apply, val_main_v12_apply, val_main_cst_4_apply]
  have e : idx_main_v11 (ix3 b s u) = ix2 b s := funext fun a => by
    match a with | ⟨0, _⟩ => rfl | ⟨1, _⟩ => rfl
  rw [e, rowSum_at]
  rfl

/-- The deviation from the mean at (b, s, k), as the stage squared for the variance holds it. -/
theorem dev15_at (b : Fin 2) (s : Fin 4096) (k : Fin 8192) :
    val_main_v15 (F := Ideal) x0 (ix3 b s k) = x0 (ix3 b s k) - rowMean (fun k' => x0 (ix3 b s k')) := by
  rw [val_main_v15_apply, val_main_v14_apply]
  have e : idx_main_v14 (ix3 b s k) = ix3 b s (0 : Fin 1) := funext fun a => by
    match a with | ⟨0, _⟩ => rfl | ⟨1, _⟩ => rfl | ⟨2, _⟩ => rfl
  rw [e, mean_at]
  rfl

/-- The same deviation, as the stage that is normalised holds it. -/
theorem dev22_at (b : Fin 2) (s : Fin 4096) (k : Fin 8192) :
    val_main_v22 (F := Ideal) x0 (ix3 b s k) = x0 (ix3 b s k) - rowMean (fun k' => x0 (ix3 b s k')) := by
  rw [val_main_v22_apply, val_main_v21_apply]
  have e : idx_main_v21 (ix3 b s k) = ix3 b s (0 : Fin 1) := funext fun a => by
    match a with | ⟨0, _⟩ => rfl | ⟨1, _⟩ => rfl | ⟨2, _⟩ => rfl
  rw [e, mean_at]
  rfl

/-- The sum of squared deviations of row (b, s). -/
theorem sqSum_at (b : Fin 2) (s : Fin 4096) :
    val_main_v17 (F := Ideal) x0 (ix2 b s)
      = ∑ k : Fin 8192, (x0 (ix3 b s k) - rowMean (fun k' => x0 (ix3 b s k'))) * (x0 (ix3 b s k) - rowMean (fun k' => x0 (ix3 b s k'))) := by
  rw [val_main_v17_apply]
  show Ideal.ofBits .f32 0x00000000#32 + _ = _
  rw [Ideal.ofBits_zero_f32, zero_add]
  refine Finset.sum_congr rfl fun k _ => ?_
  have e : idx_main_v17 (ix2 b s) k = ix3 b s k := funext fun a => by
    match a with | ⟨0, _⟩ => rfl | ⟨1, _⟩ => rfl | ⟨2, _⟩ => rfl
  rw [e, val_main_v16_apply, dev15_at]
  rfl

/-- The variance, kept with a unit last axis, at (b, s, u). -/
theorem var_at (b : Fin 2) (s : Fin 4096) (u : Fin 1) :
    val_main_v20 (F := Ideal) x0 (ix3 b s u) = rowVar (fun k => x0 (ix3 b s k)) := by
  rw [val_main_v20_apply, val_main_v18_apply, val_main_v19_apply, val_main_cst_6_apply]
  have e : idx_main_v18 (ix3 b s u) = ix2 b s := funext fun a => by
    match a with | ⟨0, _⟩ => rfl | ⟨1, _⟩ => rfl
  rw [e, sqSum_at]
  rfl

/-- The reciprocal standard deviation at (b, s, u). -/
theorem invStd_at (b : Fin 2) (s : Fin 4096) (u : Fin 1) :
    val_main_v25 (F := Ideal) x0 (ix3 b s u) = invStd (fun k => x0 (ix3 b s k)) := by
  rw [val_main_v25_apply, val_main_v24_apply, val_main_v23_apply, val_main_cst_7_apply, var_at]
  rfl

/-- The scale at column q: twice the q-th diagonal entry of the first rank-4 product. -/
theorem scale_at (q : Fin 8192) : val_main_v4 (F := Ideal) x1 x2 (ix1 q) = lowRankDiag x1 x2 q := by
  have hsum : val_main_v2 (F := Ideal) x1 x2 (ix1 q) = ∑ r : Fin 4, x1 (ix2 q r) * x2 (ix2 r q) := by
    rw [val_main_v2_apply]
    show Ideal.ofBits .f32 0x00000000#32 + _ = _
    rw [Ideal.ofBits_zero_f32, zero_add]
    refine Finset.sum_congr rfl fun r _ => ?_
    have e : idx_main_v2 (ix1 q) r = ix2 q r := funext fun a => by
      match a with | ⟨0, _⟩ => rfl | ⟨1, _⟩ => rfl
    have e' : idx_main_v0 (ix2 q r) = ix2 r q := funext fun a => by
      match a with | ⟨0, _⟩ => rfl | ⟨1, _⟩ => rfl
    rw [e, val_main_v1_apply, val_main_v0_apply, e']
    rfl
  rw [val_main_v4_apply, hsum, val_main_v3_apply, val_main_cst_0_apply]
  rfl

/-- The shift at column q: twice the q-th diagonal entry of the second rank-4 product. -/
theorem shift_at (q : Fin 8192) : val_main_v9 (F := Ideal) x3 x4 (ix1 q) = lowRankDiag x3 x4 q := by
  have hsum : val_main_v7 (F := Ideal) x3 x4 (ix1 q) = ∑ r : Fin 4, x3 (ix2 q r) * x4 (ix2 r q) := by
    rw [val_main_v7_apply]
    show Ideal.ofBits .f32 0x00000000#32 + _ = _
    rw [Ideal.ofBits_zero_f32, zero_add]
    refine Finset.sum_congr rfl fun r _ => ?_
    have e : idx_main_v7 (ix1 q) r = ix2 q r := funext fun a => by
      match a with | ⟨0, _⟩ => rfl | ⟨1, _⟩ => rfl
    have e' : idx_main_v5 (ix2 q r) = ix2 r q := funext fun a => by
      match a with | ⟨0, _⟩ => rfl | ⟨1, _⟩ => rfl
    rw [e, val_main_v6_apply, val_main_v5_apply, e']
    rfl
  rw [val_main_v9_apply, hsum, val_main_v8_apply, val_main_cst_2_apply]
  rfl

/-- The reference's result is `G` of the arguments. -/
theorem ref_eq_G : val_main_v33 (F := Ideal) x0 x1 x2 x3 x4 = G x0 x1 x2 x3 x4 := by
  funext i
  obtain ⟨b, s, k, rfl⟩ : ∃ (b : Fin 2) (s : Fin 4096) (k : Fin 8192), i = ix3 b s k := ⟨i 0, i 1, i 2, eq_ix3 i⟩
  have e26 : idx_main_v26 (ix3 b s k) = ix3 b s (0 : Fin 1) := funext fun a => by
    match a with | ⟨0, _⟩ => rfl | ⟨1, _⟩ => rfl | ⟨2, _⟩ => rfl
  have e28 : idx_main_v28 (idx_main_v29 (ix3 b s k)) = ix1 k := funext fun a => by
    match a with | ⟨0, _⟩ => rfl
  have e31 : idx_main_v31 (idx_main_v32 (ix3 b s k)) = ix1 k := funext fun a => by
    match a with | ⟨0, _⟩ => rfl
  rw [G_apply, val_main_v33_apply, val_main_v30_apply, val_main_v27_apply, dev22_at, val_main_v26_apply, e26, invStd_at,
    val_main_v29_apply, val_main_v28_apply, e28, scale_at, val_main_v32_apply, val_main_v31_apply, e31, shift_at]
  rfl

end Cert.RowNorm.Ref

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.BodyValue.lean ====
/-
  What the kernel body computes on one block, read at an entry.

  The body takes a block of 256 rows of 8192 entries and four [4, 8192] factor blocks.  Per row it sums the 8192
  entries and divides by 8192 (the mean), subtracts the mean, sums the squared deviations and divides by 8192 (the
  variance), adds ε and takes the reciprocal square root; per column it sums, over the four ranks, the products of two
  factor blocks and doubles the sum (the scale, and likewise the shift).  The row statistics are kept as a column
  [256, 1] and spread along the row; the column quantities are kept as a row [1, 8192] and spread down the block.
  Read at entry (p, q) of the block the result is therefore
  `deviation(p, q) · (invStd(row p) · scale(q)) + shift(q)`, which is `normEntryK` of row `p`.
-/
import proofs.«114333_g72842645340230_feedfinal_400_21_alg».proof.Proof.Gen.KernelIdeal.Skeleton
import proofs.«114333_g72842645340230_feedfinal_400_21_alg».proof.Proof.LayerNormSpec
import proofs.«114333_g72842645340230_feedfinal_400_21_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowNorm.Body

open Idealize.ShloMosaic Idealize.ShloMosaic.ValueIdx Cert.KernelIdeal Cert.RowNorm

/-- A reciprocal square root of a vector, at an index, is that of the element. -/
theorem rsqrt_apply {s : Shape} {φ : FTy} (a : FVec Ideal s φ) (i : s.Idx) : rsqrt a i = Ideal.rsqrt (a i) := rfl

/-- The sum of a [4, 8192] block over its first axis, at column `q`, is the sum over the four ranks. -/
theorem sumOverRank_apply (v : FVec Ideal S4x8192 .f32) (h : S4x8192.Reduces [0] S8192) (hφ : FKind.Formats .f32)
    (hacc : (0x00000000#32 : BitVec 32) = 0x00000000#32) (q : Fin 8192) :
    multiReduction .add [0] S8192 v 0x00000000#32 h hφ hacc (ix1 q) = ∑ r : Fin 4, v (ix2 r q) := by
  refine (Ideal.multiReduction_add_single v 0x00000000#32 h hφ hacc (ix1 q)).trans ?_
  refine Finset.sum_congr rfl fun r _ => congrArg v (funext fun a => Fin.ext ?_)
  match a with | ⟨0, _⟩ => rfl | ⟨1, _⟩ => rfl

/-- The sum of a [256, 8192] block over its second axis, at row `p`, is the sum over the row's 8192 entries. -/
theorem sumOverRow_apply (v : FVec Ideal S256x8192 .f32) (h : S256x8192.Reduces [1] S256) (hφ : FKind.Formats .f32)
    (hacc : (0x00000000#32 : BitVec 32) = 0x00000000#32) (p : Fin 256) :
    multiReduction .add [1] S256 v 0x00000000#32 h hφ hacc (ix1 p) = ∑ k : Fin 8192, v (ix2 p k) := by
  refine (Ideal.multiReduction_add_single v 0x00000000#32 h hφ hacc (ix1 p)).trans ?_
  refine Finset.sum_congr rfl fun k _ => congrArg v (funext fun a => Fin.ext ?_)
  match a with | ⟨0, _⟩ => rfl | ⟨1, _⟩ => rfl

/-- THE BODY'S RESULT AT AN ENTRY: `normEntryK` of the block's row `p`, with scale and shift the doubled rank sums of
    the factor blocks at column `q`. -/
theorem pay_apply (v0 v2 v8 v10 : FVec Ideal S4x8192 .f32) (v16 : FVec Ideal S256x8192 .f32) (p : Fin 256) (q : Fin 8192) :
    Gen.k0_pay1 (F := Ideal) v0 v2 v8 v10 v16 (ix2 p q)
      = normEntryK (fun k => v16 (ix2 p k)) (lowRankDiagT v0 v2 q) (lowRankDiagT v8 v10 q) q := by
  unfold Gen.k0_pay1
  simp only [addf_apply, mulf_apply, subf_apply, divf_apply, rsqrt_apply, broadcast_apply, broadcastTo_1b_ab_apply,
    broadcastTo_a1_ab_apply, shapeCast_a_1a_apply, shapeCast_a_a1_apply, shapeCast_self]
  rw [sumOverRank_apply (mulf v0 v2), sumOverRank_apply (mulf v8 v10), sumOverRow_apply v16, sumOverRow_apply]
  simp only [mulf_apply, subf_apply, divf_apply, broadcast_apply, broadcastTo_a1_ab_apply, shapeCast_a_a1_apply]
  rw [sumOverRow_apply v16]
  rfl

end Cert.RowNorm.Body

end
-- ==== Proof.LibReshape.lean ====
/-
  Layout operations read at an index, for shapes the value library does not yet spell out.

  * A trailing unit axis: an `[a, b]` array cast to `[a, b, 1]`, and an `[a, b, 1]` array broadcast
    along its unit axis to `[a, b, c]`. Together they read a per-(row, group) quantity at every lane of
    the group.
  * Two adjacent axes merged or split by a cast, row-major order kept: `[a, b, c]` to `[a, b * c]`
    (the last two axes merged), `[a, b, c]` to `[a * b, c]` (the first two merged) and back. The merged
    coordinate is `j * c + k`, respectively `i * b + j`; the lemmas take it as a variable with that
    equation, so that a caller may present it in whichever form it has (a quotient and remainder, or a
    product and sum).

  All of them are the library's `shapeCast_apply` / `broadcastTo_apply` with the two row-major positions
  computed.
-/
import Idealize.ShloMosaic.Lib.Pipeline.Value
import Idealize.ShloMosaic.Lib.ValueIdx

namespace Cert.LibReshape

open Idealize.ShloMosaic Idealize.ShloMosaic.ValueIdx

variable {α : Type}

/-! ## A trailing unit axis -/

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the value
    does not depend on the position `k` along the broadcast axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Two adjacent axes merged or split -/

/-- An `[a, b, c]` array cast to `[a, n]` with `n = b * c` reads, at `(i, q)` with `q = j * c + k`, the operand at
    `(i, j, k)`. -/
theorem shapeCast_abc_a_bc_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = j.val * c + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn, Nat.add_mul, Nat.mul_assoc, Nat.add_assoc])

/-- An `[a, b, c]` array cast to `[n, c]` (with `n = a * b`) reads, at `(r, k)` with `r = i * b + j`, the operand at
    `(i, j, k)`. -/
theorem shapeCast_abc_ab_c_apply {a b c n : ℕ} (x : (⟨3, ![a, b, c]⟩ : Shape).Idx → α)
    (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array (with `n = a * b`) cast to `[a, b, c]` reads, at `(i, j, k)`, the operand at `(r, k)` with
    `r = i * b + j`. -/
theorem shapeCast_ab_c_abc_apply {a b c n : ℕ} (x : (⟨2, ![n, c]⟩ : Shape).Idx → α)
    (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibReshape
-- ==== Proof.KernelValue.lean ====
/-
  What the kernel's program leaves in its result array: the specification `G` of the arguments.

  The program first views the [2, 4096, 8192] input as 8192 rows of 8192 entries (row b · 4096 + s is row (b, s)) and
  transposes the two left factors to [4, 8192].  The grid has 32 points; point `t` is handed rows 256 t … 256 t + 255
  of the row-flattened input, the four whole factor arrays, and writes back rows 256 t … 256 t + 255 of the result.  By
  the body's value at an entry, what point `t` writes back is its block of ONE whole-array function, `G2` of the arrays
  the region finds; the 32 blocks tile the 8192 rows, so the result array ends holding `G2`.  The program last views
  the result as [2, 4096, 8192] again.  Reading the two views and the two transposes at an index turns `G2` into `G`,
  up to the grouping of the product `deviation · invStd · scale`, which multiplication's associativity settles.
-/
import proofs.«114333_g72842645340230_feedfinal_400_21_alg».proof.Proof.Gen.KernelIdeal.Frame
import proofs.«114333_g72842645340230_feedfinal_400_21_alg».proof.Proof.BodyValue
import proofs.«114333_g72842645340230_feedfinal_400_21_alg».proof.Proof.LibReshape
import Idealize.ShloMosaic.Lib.ValueIdx
import Idealize.ShloMosaic.Lib.ValueLayout
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.StableHlo
open Idealize.ShloMosaic.Pipeline (Dat)

namespace Cert.RowNorm.Kernel

open Idealize.ShloMosaic.ValueIdx Cert.KernelIdeal Cert.KernelIdeal.Gen Cert.RowNorm

variable (m : (ℓ : Loc nD τ sig) → Buf (Elt Ideal) ℓ) (ρ : Dev nD → PrngReg)

/-! ## The arrays the region finds -/

/-- The row-flattened input: the [2, 4096, 8192] argument viewed as [8192, 8192]. -/
theorem V_rows (c : Dev nD) :
    (V m c main_v0 : S8192x8192.Idx → EReal)
      = shapeCast S8192x8192 (m ((c : Thread nD τ).loc main_arg0) : S2x4096x8192.Idx → EReal) shapeCasts_S2x4096x8192_S8192x8192 := by
  show StableHlo.after hostOps0 (fun b => m (c, b)) (Proc.devRef .tc main_v0) = _
  after_results
  rfl

/-- The first left factor, transposed. -/
theorem V_scaleAt (c : Dev nD) :
    (V m c main_v1 : S4x8192.Idx → EReal)
      = transpose S4x8192 [1, 0] (m ((c : Thread nD τ).loc main_arg1) : S8192x4.Idx → EReal) transposes_S8192x4_S4x8192_1_0 := by
  show StableHlo.after hostOps0 (fun b => m (c, b)) (Proc.devRef .tc main_v1) = _
  after_results

/-- The second left factor, transposed. -/
theorem V_shiftAt (c : Dev nD) :
    (V m c main_v2 : S4x8192.Idx → EReal)
      = transpose S4x8192 [1, 0] (m ((c : Thread nD τ).loc main_arg3) : S8192x4.Idx → EReal) transposes_S8192x4_S4x8192_1_0 := by
  show StableHlo.after hostOps0 (fun b => m (c, b)) (Proc.devRef .tc main_v2) = _
  after_results

/-! ## The blocks the body is handed -/

theorem hz : (![0, 0] : Fin 2 → Nat) = fun _ => 0 := funext fun a => by fin_cases a <;> rfl

/-- The printed index maps, decided over the 32 grid points: the input's and the result's row blocks move together, one
    block per point; every other block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 32 :=
  (by decide +kernel : ∀ t : Fin grid0.N, _)

/-- A factor window's block is the whole factor array, at every point. -/
theorem iblk1_eq (c : Dev nD) (t : Fin cfg0.N) : (iblk m c 1 t : S4x8192.Idx → EReal) = V m c main_v1 := by
  obtain ⟨-, -, e0, e1, -⟩ := idx_facts t
  funext y
  unfold iblk
  show V m c main_v1 (((cfg0.win 1).blk t).view.emb y) = V m c main_v1 y
  refine congrArg (V m c main_v1) (funext fun a => Fin.ext ?_)
  match a with
  | ⟨0, _⟩ => show win0_1.index t (0 : Fin 2) * 4 + 1 * (y 0).val = (y 0).val; omega
  | ⟨1, _⟩ => show win0_1.index t (1 : Fin 2) * 8192 + 1 * (y 1).val = (y 1).val; omega
theorem iblk2_eq (c : Dev nD) (t : Fin cfg0.N) : (iblk m c 2 t : S4x8192.Idx → EReal) = V m c main_arg2 := by
  obtain ⟨-, -, -, -, e0, e1, -⟩ := idx_facts t
  funext y
  unfold iblk
  show V m c main_arg2 (((cfg0.win 2).blk t).view.emb y) = V m c main_arg2 y
  refine congrArg (V m c main_arg2) (funext fun a => Fin.ext ?_)
  match a with
  | ⟨0, _⟩ => show win0_2.index t (0 : Fin 2) * 4 + 1 * (y 0).val = (y 0).val; omega
  | ⟨1, _⟩ => show win0_2.index t (1 : Fin 2) * 8192 + 1 * (y 1).val = (y 1).val; omega
theorem iblk3_eq (c : Dev nD) (t : Fin cfg0.N) : (iblk m c 3 t : S4x8192.Idx → EReal) = V m c main_v2 := by
  obtain ⟨-, -, -, -, -, -, e0, e1, -⟩ := idx_facts t
  funext y
  unfold iblk
  show V m c main_v2 (((cfg0.win 3).blk t).view.emb y) = V m c main_v2 y
  refine congrArg (V m c main_v2) (funext fun a => Fin.ext ?_)
  match a with
  | ⟨0, _⟩ => show win0_3.index t (0 : Fin 2) * 4 + 1 * (y 0).val = (y 0).val; omega
  | ⟨1, _⟩ => show win0_3.index t (1 : Fin 2) * 8192 + 1 * (y 1).val = (y 1).val; omega
theorem iblk4_eq (c : Dev nD) (t : Fin cfg0.N) : (iblk m c 4 t : S4x8192.Idx → EReal) = V m c main_arg4 := by
  obtain ⟨-, -, -, -, -, -, -, -, e0, e1, -⟩ := idx_facts t
  funext y
  unfold iblk
  show V m c main_arg4 (((cfg0.win 4).blk t).view.emb y) = V m c main_arg4 y
  refine congrArg (V m c main_arg4) (funext fun a => Fin.ext ?_)
  match a with
  | ⟨0, _⟩ => show win0_4.index t (0 : Fin 2) * 4 + 1 * (y 0).val = (y 0).val; omega
  | ⟨1, _⟩ => show win0_4.index t (1 : Fin 2) * 8192 + 1 * (y 1).val = (y 1).val; omega

/-- Row `p` of the input block at point `t` is row `256 t + p` of the row-flattened input. -/
theorem iblk0_apply (c : Dev nD) (t : Fin cfg0.N) (p : Fin 256) (k : Fin 8192) (r : Fin 8192) (hr : r.val = t.val * 256 + p.val) :
    (iblk m c 0 t : S256x8192.Idx → EReal) (ix2 p k) = V m c main_v0 (ix2 r k) := by
  obtain ⟨e0, e1, -, -, -, -, -, -, -, -, e5, -⟩ := idx_facts t
  unfold iblk
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 256 + 1 * p.val = r.val; omega
  | ⟨1, _⟩ => show win0_0.index t (1 : Fin 2) * 8192 + 1 * k.val = k.val; omega

/-! ## What a point writes back, and the result array -/

/-- The whole-array function the result array ends holding: `G2` of the arrays the region finds. -/
def Gout (c : Dev nD) : S8192x8192.Idx → EReal :=
  G2 (V m c main_v0) (V m c main_v1) (V m c main_arg2) (V m c main_v2) (V m c main_arg4)

/-- Entry (p, q) of the result block at point `t` is entry (256 t + p, q) of the array. -/
theorem oblk_apply (c : Dev nD) (t : Fin cfg0.N) (Gf : S8192x8192.Idx → EReal) (p : Fin 256) (q : Fin 8192) (r : Fin 8192)
    (hr : r.val = t.val * 256 + p.val) :
    (((cfg0.win 5).blk t).view.read (Elt Ideal) Gf : S256x8192.Idx → EReal) (ix2 p q) = Gf (ix2 r q) := by
  obtain ⟨-, -, -, -, -, -, -, -, -, -, e0, e1, -⟩ := idx_facts t
  show Gf (((cfg0.win 5).blk t).view.emb (ix2 p q)) = Gf (ix2 r q)
  refine congrArg Gf (funext fun a => Fin.ext ?_)
  match a with
  | ⟨0, _⟩ => show win0_5.index t (0 : Fin 2) * 256 + 1 * p.val = r.val; omega
  | ⟨1, _⟩ => show win0_5.index t (1 : Fin 2) * 8192 + 1 * q.val = q.val; omega

/-- WHAT POINT `t` WRITES BACK is block `t` of `Gout`. -/
theorem flushed_eq (c : Dev nD) (t : Fin cfg0.N) :
    (dats m 0 c).flushed 5 t = ((cfg0.win 5).blk t).view.read (Elt Ideal) (Gout m c) := by
  obtain ⟨-, -, -, -, -, -, -, -, -, -, -, -, ht⟩ := idx_facts t
  show (cfg0.win 5).cut (grid0.coords t) ((dats m 0 c).after 5 t) = _
  rw [after0_5]
  unfold out0_5
  rw [View.canon_unit_zero hz]
  simp only [View.ld_unit_zero (S := S4x8192) hz, View.ld_unit_zero (S := S256x8192) hz]
  rw [iblk1_eq, iblk2_eq, iblk3_eq, iblk4_eq]
  funext j
  obtain ⟨p, q, rfl⟩ : ∃ (p : Fin 256) (q : Fin 8192), j = ix2 p q := ⟨j 0, j 1, eq_ix2 j⟩
  have hp : p.val < 256 := p.isLt
  refine (Body.pay_apply (V m c main_v1) (V m c main_arg2) (V m c main_v2) (V m c main_arg4) (iblk m c 0 t) p q).trans ?_
  refine Eq.trans ?_ (oblk_apply c t (Gout m c) p q ⟨t.val * 256 + p.val, by omega⟩ rfl).symm
  unfold Gout
  rw [G2_apply]
  refine congrArg (fun ρ' : Fin 8192 → EReal => normEntryK ρ' _ _ q) (funext fun k => ?_)
  exact iblk0_apply m c t p k ⟨t.val * 256 + p.val, by omega⟩ rfl

/-- An index of the array is in point `t`'s block iff each coordinate is in the block's range on its axis. -/
theorem mem_blk (t : Fin cfg0.N) (i : S8192x8192.Idx) :
    i ∈ ((cfg0.win 5).blk t).view.set ↔ ∀ a : Fin 2, win0_5.index t a * S256x8192.size a ≤ (i a).val ∧ (i a).val < win0_5.index t a * S256x8192.size a + S256x8192.size a := by
  show i ∈ ((View.whole main_v3).slice (win0_5.rect t)).set ↔ _
  rw [View.set_slice_whole, Rect.mem_set_unit]
  exact Iff.rfl

/-- The 32 row blocks tile the array: row `r` is in the block of point `r / 256`. -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  have hN : cfg0.N = 32 := N_0
  refine ⟨⟨(i 0).val / 256, by rw [hN]; omega⟩, flush0_5 _, ?_⟩
  obtain ⟨-, -, -, -, -, -, -, -, -, -, e0, e1, -⟩ := idx_facts ⟨(i 0).val / 256, by rw [hN]; omega⟩
  rw [mem_blk]
  intro a
  match a with
  | ⟨0, _⟩ =>
    show win0_5.index _ (0 : Fin 2) * 256 ≤ (i 0).val ∧ (i 0).val < win0_5.index _ (0 : Fin 2) * 256 + 256
    rw [e0]; show (i 0).val / 256 * 256 ≤ (i 0).val ∧ (i 0).val < (i 0).val / 256 * 256 + 256; omega
  | ⟨1, _⟩ =>
    show win0_5.index _ (1 : Fin 2) * 8192 ≤ (i 1).val ∧ (i 1).val < win0_5.index _ (1 : Fin 2) * 8192 + 8192
    rw [e1]; omega

/-- THE RESULT ARRAY after the region holds `Gout`. -/
theorem final (c : Dev nD) : (dats m 0 c).arrAt 5 cfg0.N = Gout m c :=
  (dats m 0 c).arrAt_eq_of_cover 5 (Gout m c) (fun t _ => flushed_eq m c t) cover

/-! ## The result, viewed as [2, 4096, 8192] again -/

/-- After the program's last line the result buffer holds `Gout` viewed as [2, 4096, 8192]. -/
theorem result_eq (c : Dev nD) :
    (Pipeline.afterTail₀ cfgs (dats m) 0 (V0 m) [hostOps1] c main_v4 : S2x4096x8192.Idx → EReal)
      = shapeCast S2x4096x8192 (Gout m c) shapeCasts_S8192x8192_S2x4096x8192 := by
  have h5 : Pipeline.withArrays spec0 c (V0 m c) (fun w => (dats m 0 c).arrAt w cfg0.N) (Proc.devRef .tc main_v3) = Gout m c :=
    (Pipeline.withArrays_arr spec0 launch0.win.arr_inj c _ _ 5).trans (final m c)
  unfold Pipeline.afterTail₀
  show StableHlo.after hostOps1 _ (Proc.devRef .tc main_v4) = _
  after_results
  funext i
  exact congrFun (congrArg (fun X : S8192x8192.Idx → EReal => shapeCast S2x4096x8192 X shapeCasts_S8192x8192_S2x4096x8192) h5) i

/-- Entry (b, s, k) of the viewed result is `G` of the arguments there: row b · 4096 + s of the flattened input is row
    (b, s) of the input, a transposed factor at (r, q) is the factor at (q, r), and the two groupings of the product agree. -/
theorem out_apply (c : Dev nD) (b : Fin 2) (s : Fin 4096) (k : Fin 8192) :
    shapeCast S2x4096x8192 (Gout m c) shapeCasts_S8192x8192_S2x4096x8192 (ix3 b s k)
      = G (m ((c : Thread nD τ).loc main_arg0)) (m ((c : Thread nD τ).loc main_arg1)) (m ((c : Thread nD τ).loc main_arg2))
          (m ((c : Thread nD τ).loc main_arg3)) (m ((c : Thread nD τ).loc main_arg4)) (ix3 b s k) := by
  have hb : b.val < 2 := b.isLt
  have hs : s.val < 4096 := s.isLt
  refine (LibReshape.shapeCast_ab_c_abc_apply (Gout m c) shapeCasts_S8192x8192_S2x4096x8192 b s k
    (⟨b.val * 4096 + s.val, by omega⟩ : Fin 8192) rfl).trans ?_
  unfold Gout
  rw [G2_apply, normEntryK_eq, G_apply]
  have hrow : (fun k' : Fin 8192 => V m c main_v0 (ix2 (⟨b.val * 4096 + s.val, by omega⟩ : Fin 8192) k'))
      = fun k' : Fin 8192 => (m ((c : Thread nD τ).loc main_arg0) : S2x4096x8192.Idx → EReal) (ix3 b s k') := funext fun k' => by
    rw [V_rows]
    exact LibReshape.shapeCast_abc_ab_c_apply _ shapeCasts_S2x4096x8192_S8192x8192 b s k' _ rfl
  have hsc : lowRankDiagT (V m c main_v1) (V m c main_arg2) k
      = lowRankDiag (m ((c : Thread nD τ).loc main_arg1)) (m ((c : Thread nD τ).loc main_arg2)) k := by
    unfold lowRankDiagT lowRankDiag
    rw [V_scaleAt, V_main_arg2]
    refine congrArg (· * two) (Finset.sum_congr rfl fun r _ => ?_)
    rw [transpose_ix2_apply]
  have hsh : lowRankDiagT (V m c main_v2) (V m c main_arg4) k
      = lowRankDiag (m ((c : Thread nD τ).loc main_arg3)) (m ((c : Thread nD τ).loc main_arg4)) k := by
    unfold lowRankDiagT lowRankDiag
    rw [V_shiftAt, V_main_arg4]
    refine congrArg (· * two) (Finset.sum_congr rfl fun r _ => ?_)
    rw [transpose_ix2_apply]
  rw [hrow, hsc, hsh]

/-- The viewed result is `G` of the arguments. -/
theorem out_eq (c : Dev nD) :
    shapeCast S2x4096x8192 (Gout m c) shapeCasts_S8192x8192_S2x4096x8192
      = G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, k, rfl⟩ : ∃ (b : Fin 2) (s : Fin 4096) (k : Fin 8192), i = ix3 b s k := ⟨i 0, i 1, i 2, eq_ix3 i⟩
  exact out_apply m c b s k

/-! ## The run, read -/

/-- Every weakly fair execution of the kernel's program ends with the result buffer at `G` of the arguments and the
    arguments unchanged. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v4 (Pipeline.mem_restRefs_of main_v4 (by decide) (by decide))).trans ((result_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.RowNorm.Kernel

end
-- ==== Proof.lean ====
/-
  A layer normalisation over the last axis of a [2, 4096, 8192] array with a per-column affine map whose scale and
  shift are twice the diagonals of two rank-4 products, computed two ways, gives the same extended reals.

  One program works on 8192 rows of 8192 entries, 256 rows at a time, with the left factors transposed, and forms each
  entry as `deviation · (invStd · scale) + shift`; the other works on the [2, 4096, 8192] array whole and forms
  `(deviation · invStd) · scale + shift`.  Both are the one function `G` of the arguments (LayerNormSpec): the second by
  reading its stages at an index (RefIsSpec), the first by reading what each block of rows is overwritten with, tiling the
  rows by the blocks, and undoing the two re-layouts (BodyValue, KernelValue).  The only law used between the two is the
  associativity of multiplication on the extended reals, so the inputs' finiteness is never opened.  Nothing was rewritten
  between the program as written and the program read over the extended reals, so that part of the claim is trivial.
-/
import proofs.«114333_g72842645340230_feedfinal_400_21_alg».proof.Defs
import proofs.«114333_g72842645340230_feedfinal_400_21_alg».proof.Proof.Gen.Kernel
import proofs.«114333_g72842645340230_feedfinal_400_21_alg».proof.Proof.Gen.Kernel.Skeleton
import proofs.«114333_g72842645340230_feedfinal_400_21_alg».proof.Proof.Gen.Kernel.Launch
import proofs.«114333_g72842645340230_feedfinal_400_21_alg».proof.Proof.Gen.Kernel.Points
import proofs.«114333_g72842645340230_feedfinal_400_21_alg».proof.Proof.Gen.Kernel.Frame
import proofs.«114333_g72842645340230_feedfinal_400_21_alg».proof.Proof.Gen.KernelIdeal
import proofs.«114333_g72842645340230_feedfinal_400_21_alg».proof.Proof.Gen.KernelIdeal.Skeleton
import proofs.«114333_g72842645340230_feedfinal_400_21_alg».proof.Proof.Gen.KernelIdeal.Launch
import proofs.«114333_g72842645340230_feedfinal_400_21_alg».proof.Proof.Gen.KernelIdeal.Points
import proofs.«114333_g72842645340230_feedfinal_400_21_alg».proof.Proof.Gen.KernelIdeal.Frame
import proofs.«114333_g72842645340230_feedfinal_400_21_alg».proof.Proof.Gen.ReferenceIdeal
import proofs.«114333_g72842645340230_feedfinal_400_21_alg».proof.Proof.Gen.Pre_finite_inputs
import proofs.«114333_g72842645340230_feedfinal_400_21_alg».proof.Proof.Gen.ReferenceIdeal.Run
import proofs.«114333_g72842645340230_feedfinal_400_21_alg».proof.Proof.Gen.ReferenceIdeal.Read
import proofs.«114333_g72842645340230_feedfinal_400_21_alg».proof.Proof.RefIsSpec
import proofs.«114333_g72842645340230_feedfinal_400_21_alg».proof.Proof.KernelValue
import Idealize.ShloMosaic.Adequacy
import Idealize.ShloMosaic.Init

noncomputable section

namespace Cert.Proof

open Idealize.ShloMosaic Idealize.SL.Sem

/-- The program as written runs and leaves its arguments unchanged. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at `G` of the arguments. -/
theorem algebraic : Cert.algebraic_KernelIdeal_ReferenceIdeal := by
  intro m ρ m' ρ' _ hagree
  refine ⟨fun c => Cert.RowNorm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.RowNorm.Kernel.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v33_eq _ _ _ _ _).trans (Cert.RowNorm.Ref.ref_eq_G _ _ _ _ _)).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
